-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x1 : Shape := ⟨2, ![16777216, 1]⟩
abbrev S_ : Shape := ⟨0, ![]⟩

class Facts : Prop where
  bcast_S_S16777216x1 : S_.BroadcastsInDim S16777216x1 (![] : Fin 0 → Fin S16777216x1.rank)
  reducesTo_S16777216x1_S_d0_1 : S16777216x1.ReducesTo [0, 1] S_
  h_S_ : 0 < S_.numel

variable [Facts]

def fn {F : FTy → Type} [FloatOps F] (main_arg0 : FVec F S16777216x1 .f32) (main_arg1 : FVec F S16777216x1 .f32) (main_arg2 : FVec F S16777216x1 .f32) : IVec S_ 1 :=
  let main_v0 : FVec F S16777216x1 .f32 := Host.absf main_arg0
  let main_cst : FVec F S_ .f32 := constant S_ .f32 0x7F800000#32
  let main_v1 : FVec F S16777216x1 .f32 := broadcastInDim S16777216x1 ![] bcast_S_S16777216x1 main_cst
  let main_v2 : IVec S16777216x1 1 := cmpf .olt main_v0 main_v1
  let main_c : IVec S_ 1 := constantI S_ 1 1#1
  let main_v3 : IVec S_ 1 := (fun x v => Host.reduce IntOp.andi x v reducesTo_S16777216x1_S_d0_1 h_S_) main_v2 main_c
  let main_v4 : FVec F S16777216x1 .f32 := Host.absf main_arg1
  let main_cst_0 : FVec F S_ .f32 := constant S_ .f32 0x7F800000#32
  let main_v5 : FVec F S16777216x1 .f32 := broadcastInDim S16777216x1 ![] bcast_S_S16777216x1 main_cst_0
  let main_v6 : IVec S16777216x1 1 := cmpf .olt main_v4 main_v5
  let main_c_1 : IVec S_ 1 := constantI S_ 1 1#1
  let main_v7 : IVec S_ 1 := (fun x v => Host.reduce IntOp.andi x v reducesTo_S16777216x1_S_d0_1 h_S_) main_v6 main_c_1
  let main_v8 : IVec S_ 1 := andi main_v3 main_v7
  let main_v9 : FVec F S16777216x1 .f32 := Host.absf main_arg2
  let main_cst_2 : FVec F S_ .f32 := constant S_ .f32 0x7F800000#32
  let main_v10 : FVec F S16777216x1 .f32 := broadcastInDim S16777216x1 ![] bcast_S_S16777216x1 main_cst_2
  let main_v11 : IVec S16777216x1 1 := cmpf .olt main_v9 main_v10
  let main_c_3 : IVec S_ 1 := constantI S_ 1 1#1
  let main_v12 : IVec S_ 1 := (fun x v => Host.reduce IntOp.andi x v reducesTo_S16777216x1_S_d0_1 h_S_) main_v11 main_c_3
  let main_v13 : IVec S_ 1 := andi main_v8 main_v12
  main_v13
-- ==== Kernel.lean ====
abbrev S16777216x1 : Shape := ⟨2, ![16777216, 1]⟩
abbrev S131072x128 : Shape := ⟨2, ![131072, 128]⟩
abbrev S16x128 : Shape := ⟨2, ![16, 128]⟩
abbrev S8192x128 : Shape := ⟨2, ![8192, 128]⟩
abbrev S8x128 : Shape := ⟨2, ![8, 128]⟩
abbrev S1x128 : Shape := ⟨2, ![1, 128]⟩
abbrev S128 : Shape := ⟨1, ![128]⟩
abbrev S1 : Shape := ⟨1, ![1]⟩
abbrev S1x1 : Shape := ⟨2, ![1, 1]⟩
abbrev S_ : Shape := ⟨0, ![]⟩

abbrev nBuf : Space → Nat
  | .hbm => 14
  | .vmem => 7
  | .smem => 0
  | _ => 0

abbrev bufTy : (tb : Table) → Fin (tcTables nBuf tb) → BufTy
  | .hbm, ⟨0, _⟩ => ⟨S16777216x1, .f32⟩
  | .hbm, ⟨1, _⟩ => ⟨S16777216x1, .f32⟩
  | .hbm, ⟨2, _⟩ => ⟨S16777216x1, .f32⟩
  | .hbm, ⟨3, _⟩ => ⟨S131072x128, .f32⟩
  | .hbm, ⟨4, _⟩ => ⟨S131072x128, .f32⟩
  | .hbm, ⟨5, _⟩ => ⟨S16x128, .f32⟩
  | .hbm, ⟨6, _⟩ => ⟨S1x1, .f32⟩
  | .hbm, ⟨7, _⟩ => ⟨S_, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8x128, .f32⟩
  | .local _ .vmem, ⟨5, _⟩ => ⟨S8x128, .f32⟩
  | .local _ .vmem, ⟨6, _⟩ => ⟨S1x128, .f32⟩
  | _, _ => ⟨S16777216x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_9 : BitVec 32 := 0#32
  let v28 : BitVec 1 := Scalar.cmpi .ne v27 c0_i32_9
  v28

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16777216x1_S131072x128 : S16777216x1.ShapeCasts S131072x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S128 : S8192x128.Reduces [0] S128
  shapeCasts_S128_S1x128 : S128.ShapeCasts S1x128
  reduces_S1x128_S1 : S1x128.Reduces [1] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16777216x1 : Shape := ⟨2, ![16777216, 1]⟩
abbrev S16777216x2 : Shape := ⟨2, ![16777216, 2]⟩
abbrev S_ : Shape := ⟨0, ![]⟩
abbrev S16777216 : Shape := ⟨1, ![16777216]⟩

abbrev nBuf : Space → Nat
  | .hbm => 24
  | .vmem => 0
  | .smem => 0
  | _ => 0

abbrev bufTy : (tb : Table) → Fin (tcTables nBuf tb) → BufTy
  | .hbm, ⟨0, _⟩ => ⟨S16777216x1, .f32⟩
  | .hbm, ⟨1, _⟩ => ⟨S16777216x1, .f32⟩
  | .hbm, ⟨2, _⟩ => ⟨S16777216x1, .f32⟩
  | .hbm, ⟨3, _⟩ => ⟨S16777216x2, .f32⟩
  | .hbm, ⟨4, _⟩ => ⟨S_, .f32⟩
  | .hbm, ⟨5, _⟩ => ⟨S16777216, .f32⟩
  | .hbm, ⟨6, _⟩ => ⟨S_, .f32⟩
  | .hbm, ⟨7, _⟩ => ⟨S16777216, .f32⟩
  | .hbm, ⟨8, _⟩ => ⟨S16777216, .f32⟩
  | .hbm, ⟨9, _⟩ => ⟨S16777216x1, .f32⟩
  | .hbm, ⟨10, _⟩ => ⟨S16777216x2, .f32⟩
  | .hbm, ⟨11, _⟩ => ⟨S16777216x2, .f32⟩
  | .hbm, ⟨12, _⟩ => ⟨S16777216x2, .f32⟩
  | .hbm, ⟨13, _⟩ => ⟨S_, .f32⟩
  | .hbm, ⟨14, _⟩ => ⟨S16777216, .f32⟩
  | .hbm, ⟨15, _⟩ => ⟨S16777216x1, .f32⟩
  | .hbm, ⟨16, _⟩ => ⟨S16777216x1, .f32⟩
  | .hbm, ⟨17, _⟩ => ⟨S16777216x2, .f32⟩
  | .hbm, ⟨18, _⟩ => ⟨S16777216x2, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S16777216x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩

abbrev nD : Nat := 1
abbrev τ : Topo := Topo.v7x

variable {F : FTy → Type} [FloatOps F]

class Facts₀ : Prop where
  concatenates_S16777216x1_S16777216x1_S16777216x2_d1 : Shape.Concatenates [S16777216x1, S16777216x1] S16777216x2 1
  reducesTo_S16777216x2_S16777216_d1 : S16777216x2.ReducesTo [1] S16777216
  h_S_ : 0 < S_.numel
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S16777216x1_S16777216x2_0_1 : S16777216x1.BroadcastsInDim S16777216x2 (![0, 1] : Fin 2 → Fin S16777216x2.rank)
  reducesTo_S16777216x2_S_d0_1 : S16777216x2.ReducesTo [0, 1] S_

variable [Facts₀]

class Facts : Prop extends Facts₀ where

variable [Facts]
-- ==== Proof.RefRun.lean ====
/-
  The one-pass program's run, read back.

  The program is a straight line of twenty-one host operations: the two score columns joined into a two-column
  array; its row maxima (a fold of `max` from -∞, and one more `max` with -∞); the entries less their row's
  maximum; their exponentials; each row's sum of exponentials and its logarithm; the log-probabilities (the
  shifted entries less that logarithm); their total; the total divided by the count; the quotient negated.
  Fifteen of the operations are spelt through references that carry their value's type; each is the same
  operation spelt on the bare reference (the type carried is the reference's own), so the program is the
  plain line `opsP`, and every weakly fair execution ends with the result buffer at the line's composed
  term of the two score arguments, the arguments unchanged.
-/
import proofs.«123829_j19825569038545_2_alg».proof.Proof.Gen.ReferenceIdeal
import Idealize.ShloMosaic.Lib.StableHlo.Run

noncomputable section

open Idealize.ShloMosaic Idealize.ShloMosaic.TcCoe Idealize.SL.Sem Idealize.ShloMosaic.StableHlo

namespace Cert.ReferenceIdeal.HostRun

/-! ## An operation spelt through typed references is the operation on the bare references -/

section Typed

variable {τ : Topo} {sig : RefSig} {Val : EltTy → Type}

theorem nullary_of (y : Ref sig .tc) (h1 : y.space ≠ .host) (h2 : y.isScoped = false) (v : y.ty.Contents Val) :
    (TRef.nullary (τ := τ) (TRef.of (T := y.ty) y rfl h1 h2) v : HloOp τ sig Val) = StableHlo.nullary y v ⟨h1, h2⟩ := rfl

theorem unary_of (x y : Ref sig .tc) (hx1 : x.space ≠ .host) (hx2 : x.isScoped = false) (hy1 : y.space ≠ .host)
    (hy2 : y.isScoped = false) (f : x.ty.Contents Val → y.ty.Contents Val) :
    (TRef.unary (τ := τ) (TRef.of (T := x.ty) x rfl hx1 hx2) (TRef.of (T := y.ty) y rfl hy1 hy2) f : HloOp τ sig Val)
      = StableHlo.unary x y f ⟨hx1, hx2⟩ ⟨hy1, hy2⟩ := rfl

theorem binary_of (a b y : Ref sig .tc) (ha1 : a.space ≠ .host) (ha2 : a.isScoped = false) (hb1 : b.space ≠ .host)
    (hb2 : b.isScoped = false) (hy1 : y.space ≠ .host) (hy2 : y.isScoped = false)
    (f : a.ty.Contents Val → b.ty.Contents Val → y.ty.Contents Val) :
    (TRef.binary (τ := τ) (TRef.of (T := a.ty) a rfl ha1 ha2) (TRef.of (T := b.ty) b rfl hb1 hb2)
        (TRef.of (T := y.ty) y rfl hy1 hy2) f : HloOp τ sig Val)
      = StableHlo.binary a b y f ⟨ha1, ha2⟩ ⟨hb1, hb2⟩ ⟨hy1, hy2⟩ := rfl

end Typed

open Cert.ReferenceIdeal Cert.ReferenceIdeal.Gen

variable {F : FTy → Type} [FloatOps F]

/-- The program's operations as it spells them. -/
abbrev opsT : List (HloOp τ sig (Elt F)) :=
  [ binary main_arg1 main_arg2 main_v0 ((fun a b => concatenate S16777216x2 1 [⟨S16777216x1, a⟩, ⟨S16777216x1, b⟩] concatenates_S16777216x1_S16777216x1_S16777216x2_d1) : (⟨S16777216x1, .f32⟩ : BufTy).Contents (Elt F) → (⟨S16777216x1, .f32⟩ : BufTy).Contents (Elt F) → (⟨S16777216x2, .f32⟩ : BufTy).Contents (Elt F)),
    TRef.nullary (TRef.of (T := ⟨S_, .f32⟩) main_call0_cst) (constant S_ .f32 0xFF800000#32),
    TRef.binary (TRef.of (T := ⟨S16777216x2, .f32⟩) main_v0) (TRef.of (T := ⟨S_, .f32⟩) main_call0_cst) (TRef.of (T := ⟨S16777216, .f32⟩) main_call0_v0) (fun x v => Host.reduce FloatOps.maximumf x v reducesTo_S16777216x2_S16777216_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S16777216, .f32⟩) main_call0_v1) (broadcastInDim S16777216 ![] bcast_S_S16777216),
    TRef.binary (TRef.of (T := ⟨S16777216, .f32⟩) main_call0_v1) (TRef.of (T := ⟨S16777216, .f32⟩) main_call0_v0) (TRef.of (T := ⟨S16777216, .f32⟩) main_call0_v2) maximumf,
    TRef.unary (TRef.of (T := ⟨S16777216, .f32⟩) main_call0_v2) (TRef.of (T := ⟨S16777216x1, .f32⟩) main_call0_v3) (broadcastInDim S16777216x1 ![0] bcast_S16777216_S16777216x1_0),
    TRef.unary (TRef.of (T := ⟨S16777216x1, .f32⟩) main_call0_v3) (TRef.of (T := ⟨S16777216x2, .f32⟩) main_call0_v4) (broadcastInDim S16777216x2 ![0, 1] bcast_S16777216x1_S16777216x2_0_1),
    TRef.binary (TRef.of (T := ⟨S16777216x2, .f32⟩) main_v0) (TRef.of (T := ⟨S16777216x2, .f32⟩) main_call0_v4) (TRef.of (T := ⟨S16777216x2, .f32⟩) main_call0_v5) subf,
    TRef.unary (TRef.of (T := ⟨S16777216x2, .f32⟩) main_call0_v5) (TRef.of (T := ⟨S16777216x2, .f32⟩) main_call0_v6) Host.exp,
    TRef.nullary (TRef.of (T := ⟨S_, .f32⟩) main_call0_cst_1) (constant S_ .f32 0x00000000#32),
    TRef.binary (TRef.of (T := ⟨S16777216x2, .f32⟩) main_call0_v6) (TRef.of (T := ⟨S_, .f32⟩) main_call0_cst_1) (TRef.of (T := ⟨S16777216, .f32⟩) main_call0_v7) (fun x v => Host.reduceAdd x v reducesTo_S16777216x2_S16777216_d1 h_S_),
    TRef.unary (TRef.of (T := ⟨S16777216, .f32⟩) main_call0_v7) (TRef.of (T := ⟨S16777216x1, .f32⟩) main_call0_v8) (broadcastInDim S16777216x1 ![0] bcast_S16777216_S16777216x1_0),
    TRef.unary (TRef.of (T := ⟨S16777216x1, .f32⟩) main_call0_v8) (TRef.of (T := ⟨S16777216x1, .f32⟩) main_call0_v9) Host.log,
    TRef.unary (TRef.of (T := ⟨S16777216x1, .f32⟩) main_call0_v9) (TRef.of (T := ⟨S16777216x2, .f32⟩) main_call0_v10) (broadcastInDim S16777216x2 ![0, 1] bcast_S16777216x1_S16777216x2_0_1),
    TRef.binary (TRef.of (T := ⟨S16777216x2, .f32⟩) main_call0_v5) (TRef.of (T := ⟨S16777216x2, .f32⟩) main_call0_v10) (TRef.of (T := ⟨S16777216x2, .f32⟩) main_v1) subf,
    nullary main_cst (constant S_ .f32 0x00000000#32),
    binary main_v1 main_cst main_v2 ((fun x v => Host.reduceAdd x v reducesTo_S16777216x2_S_d0_1 h_S_) : (⟨S16777216x2, .f32⟩ : BufTy).Contents (Elt F) → (⟨S_, .f32⟩ : BufTy).Contents (Elt F) → (⟨S_, .f32⟩ : BufTy).Contents (Elt F)),
    nullary main_cst_0 (constant S_ .f32 0x4C000000#32),
    binary main_v2 main_cst_0 main_v3 (Host.divf : (⟨S_, .f32⟩ : BufTy).Contents (Elt F) → (⟨S_, .f32⟩ : BufTy).Contents (Elt F) → (⟨S_, .f32⟩ : BufTy).Contents (Elt F)),
    unary main_v3 main_v4 (Host.negf : (⟨S_, .f32⟩ : BufTy).Contents (Elt F) → (⟨S_, .f32⟩ : BufTy).Contents (Elt F)) ]

/-- The same operations on the bare references. -/
abbrev opsP : List (HloOp τ sig (Elt F)) :=
  [ binary main_arg1 main_arg2 main_v0 ((fun a b => concatenate S16777216x2 1 [⟨S16777216x1, a⟩, ⟨S16777216x1, b⟩] concatenates_S16777216x1_S16777216x1_S16777216x2_d1) : (⟨S16777216x1, .f32⟩ : BufTy).Contents (Elt F) → (⟨S16777216x1, .f32⟩ : BufTy).Contents (Elt F) → (⟨S16777216x2, .f32⟩ : BufTy).Contents (Elt F)),
    nullary main_call0_cst (constant S_ .f32 0xFF800000#32),
    binary main_v0 main_call0_cst main_call0_v0 ((fun x v => Host.reduce FloatOps.maximumf x v reducesTo_S16777216x2_S16777216_d1 h_S_) : (⟨S16777216x2, .f32⟩ : BufTy).Contents (Elt F) → (⟨S_, .f32⟩ : BufTy).Contents (Elt F) → (⟨S16777216, .f32⟩ : BufTy).Contents (Elt F)),
    nullary main_call0_cst_0 (constant S_ .f32 0xFF800000#32),
    unary main_call0_cst_0 main_call0_v1 (broadcastInDim S16777216 ![] bcast_S_S16777216),
    binary main_call0_v1 main_call0_v0 main_call0_v2 maximumf,
    unary main_call0_v2 main_call0_v3 (broadcastInDim S16777216x1 ![0] bcast_S16777216_S16777216x1_0),
    unary main_call0_v3 main_call0_v4 (broadcastInDim S16777216x2 ![0, 1] bcast_S16777216x1_S16777216x2_0_1),
    binary main_v0 main_call0_v4 main_call0_v5 subf,
    unary main_call0_v5 main_call0_v6 Host.exp,
    nullary main_call0_cst_1 (constant S_ .f32 0x00000000#32),
    binary main_call0_v6 main_call0_cst_1 main_call0_v7 ((fun x v => Host.reduceAdd x v reducesTo_S16777216x2_S16777216_d1 h_S_) : (⟨S16777216x2, .f32⟩ : BufTy).Contents (Elt F) → (⟨S_, .f32⟩ : BufTy).Contents (Elt F) → (⟨S16777216, .f32⟩ : BufTy).Contents (Elt F)),
    unary main_call0_v7 main_call0_v8 (broadcastInDim S16777216x1 ![0] bcast_S16777216_S16777216x1_0),
    unary main_call0_v8 main_call0_v9 Host.log,
    unary main_call0_v9 main_call0_v10 (broadcastInDim S16777216x2 ![0, 1] bcast_S16777216x1_S16777216x2_0_1),
    binary main_call0_v5 main_call0_v10 main_v1 subf,
    nullary main_cst (constant S_ .f32 0x00000000#32),
    binary main_v1 main_cst main_v2 ((fun x v => Host.reduceAdd x v reducesTo_S16777216x2_S_d0_1 h_S_) : (⟨S16777216x2, .f32⟩ : BufTy).Contents (Elt F) → (⟨S_, .f32⟩ : BufTy).Contents (Elt F) → (⟨S_, .f32⟩ : BufTy).Contents (Elt F)),
    nullary main_cst_0 (constant S_ .f32 0x4C000000#32),
    binary main_v2 main_cst_0 main_v3 (Host.divf : (⟨S_, .f32⟩ : BufTy).Contents (Elt F) → (⟨S_, .f32⟩ : BufTy).Contents (Elt F) → (⟨S_, .f32⟩ : BufTy).Contents (Elt F)),
    unary main_v3 main_v4 (Host.negf : (⟨S_, .f32⟩ : BufTy).Contents (Elt F) → (⟨S_, .f32⟩ : BufTy).Contents (Elt F)) ]

theorem ops_eq : (opsT : List (HloOp τ sig (Elt F))) = opsP :=
  congrArg₂ List.cons rfl
    (congrArg₂ List.cons (nullary_of main_call0_cst _ _ _)
    (congrArg₂ List.cons (binary_of main_v0 main_call0_cst main_call0_v0 _ _ _ _ _ _ _)
    (congrArg₂ List.cons (nullary_of main_call0_cst_0 _ _ _)
    (congrArg₂ List.cons (unary_of main_call0_cst_0 main_call0_v1 _ _ _ _ _)
    (congrArg₂ List.cons (binary_of main_call0_v1 main_call0_v0 main_call0_v2 _ _ _ _ _ _ _)
    (congrArg₂ List.cons (unary_of main_call0_v2 main_call0_v3 _ _ _ _ _)
    (congrArg₂ List.cons (unary_of main_call0_v3 main_call0_v4 _ _ _ _ _)
    (congrArg₂ List.cons (binary_of main_v0 main_call0_v4 main_call0_v5 _ _ _ _ _ _ _)
    (congrArg₂ List.cons (unary_of main_call0_v5 main_call0_v6 _ _ _ _ _)
    (congrArg₂ List.cons (nullary_of main_call0_cst_1 _ _ _)
    (congrArg₂ List.cons (binary_of main_call0_v6 main_call0_cst_1 main_call0_v7 _ _ _ _ _ _ _)
    (congrArg₂ List.cons (unary_of main_call0_v7 main_call0_v8 _ _ _ _ _)
    (congrArg₂ List.cons (unary_of main_call0_v8 main_call0_v9 _ _ _ _ _)
    (congrArg₂ List.cons (unary_of main_call0_v9 main_call0_v10 _ _ _ _ _)
    (congrArg₂ List.cons (binary_of main_call0_v5 main_call0_v10 main_v1 _ _ _ _ _ _ _)
    (congrArg₂ List.cons rfl
    (congrArg₂ List.cons rfl
    (congrArg₂ List.cons rfl
    (congrArg₂ List.cons rfl
    (congrArg₂ List.cons rfl
    (rfl)))))))))))))))))))))

theorem main_eq (c : Dev nD) : main (F := F) c = seq opsP :=
  (show main (F := F) c = seq opsT from rfl).trans (congrArg seq ops_eq)

theorem scopedRefs_eq : (Finset.univ.filter fun b : Ref sig .tc => b.isScoped) = ∅ := by decide
theorem scopedSems_eq : (Finset.univ.filter fun sm : SemLoc sig => sm.isScoped .tc) = ∅ := by decide
theorem ops_sub : (opsP : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., binary_bufs_sub .., nullary_bufs_sub .., binary_bufs_sub .., unary_bufs_sub ..⟩

/-! ## The line's composed term, stage by stage -/

/-- The two score columns side by side. -/
def joined (x1 x2 : (⟨S16777216x1, .f32⟩ : BufTy).Contents (Elt F)) : (⟨S16777216x2, .f32⟩ : BufTy).Contents (Elt F) :=
  concatenate S16777216x2 1 [⟨S16777216x1, x1⟩, ⟨S16777216x1, x2⟩] concatenates_S16777216x1_S16777216x1_S16777216x2_d1

/-- Each row's maximum. -/
def rowMaxes (x1 x2 : (⟨S16777216x1, .f32⟩ : BufTy).Contents (Elt F)) : (⟨S16777216, .f32⟩ : BufTy).Contents (Elt F) :=
  maximumf (broadcastInDim S16777216 ![] bcast_S_S16777216 (constant S_ .f32 0xFF800000#32))
    (Host.reduce FloatOps.maximumf (joined x1 x2) (constant S_ .f32 0xFF800000#32) reducesTo_S16777216x2_S16777216_d1 h_S_)

/-- The entries less their row's maximum. -/
def shifted (x1 x2 : (⟨S16777216x1, .f32⟩ : BufTy).Contents (Elt F)) : (⟨S16777216x2, .f32⟩ : BufTy).Contents (Elt F) :=
  subf (joined x1 x2) (broadcastInDim S16777216x2 ![0, 1] bcast_S16777216x1_S16777216x2_0_1
    (broadcastInDim S16777216x1 ![0] bcast_S16777216_S16777216x1_0 (rowMaxes x1 x2)))

/-- The logarithm of each row's sum of exponentials. -/
def logSums (x1 x2 : (⟨S16777216x1, .f32⟩ : BufTy).Contents (Elt F)) : (⟨S16777216x1, .f32⟩ : BufTy).Contents (Elt F) :=
  Host.log (broadcastInDim S16777216x1 ![0] bcast_S16777216_S16777216x1_0
    (Host.reduceAdd (Host.exp (shifted x1 x2)) (constant S_ .f32 0x00000000#32) reducesTo_S16777216x2_S16777216_d1 h_S_))

/-- The log-probabilities. -/
def logProbs (x1 x2 : (⟨S16777216x1, .f32⟩ : BufTy).Contents (Elt F)) : (⟨S16777216x2, .f32⟩ : BufTy).Contents (Elt F) :=
  subf (shifted x1 x2) (broadcastInDim S16777216x2 ![0, 1] bcast_S16777216x1_S16777216x2_0_1 (logSums x1 x2))

/-- The loss: minus the mean of the log-probabilities. -/
def loss (x1 x2 : (⟨S16777216x1, .f32⟩ : BufTy).Contents (Elt F)) : (⟨S_, .f32⟩ : BufTy).Contents (Elt F) :=
  Host.negf (Host.divf (Host.reduceAdd (logProbs x1 x2) (constant S_ .f32 0x00000000#32) reducesTo_S16777216x2_S_d0_1 h_S_)
    (constant S_ .f32 0x4C000000#32))

set_option maxHeartbeats 2000000 in
/-- On every device, for any float values, from any memory with zero counters: every weakly fair execution of
    the program terminates with the result at the loss of the two score arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
        = loss (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v4).trans (by
        after_results
        unfold loss logProbs logSums shifted rowMaxes joined
        rfl),
      (h c main_arg0).trans (by after_results <;> rfl),
      (h c main_arg1).trans (by after_results <;> rfl),
      (h c main_arg2).trans (by after_results <;> rfl)⟩)
    (run_seq scopedRefs_eq scopedSems_eq defs main (fun _ => opsP) main_eq (fun _ => ops_sub) m ρ)

end Cert.ReferenceIdeal.HostRun

end
-- ==== Proof.Pieces.lean ====
/-
  What one grid step leaves behind, as values.

  A grid step loads the two score tiles and the lane accumulator, stores the accumulator plus the tile's
  column sums back, and at a core's last step also stores the output block computed from the accumulator it
  has just written. Whatever memory references the step is run on, what it leaves in the accumulator is the
  accumulation term of the two tiles and the accumulator it found — at a core's first step the accumulator it
  found is the zero row it has itself just stored — and what it leaves in the output block is the output term
  of that new accumulator.
-/
import proofs.«123829_j19825569038545_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle step of a core: the accumulator ends at the accumulation term over the accumulator it found. -/
theorem acc_mid (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S1x128 .f32) (h5 : a5.IsWhole) (hc0 : ¬cond0_0 i) (hc1 : ¬cond0_1 i)
    (x0 x1 : Vec F S8192x128 .f32) (xs0 : Vec F S1x128 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz]
  simp only [View.readAt_eq_ld, h2.read_unread, h3.read_unread, h5.read_unread, View.ld_unit_zero (S := S8192x128) hz,
    View.ld_unit_zero (S := S1x128) hz]

/-- A core's first step: the accumulator it found is the zero row it has just stored. -/
theorem acc_first (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S1x128 .f32) (h5 : a5.IsWhole) (hc0 : cond0_0 i) (hc1 : ¬cond0_1 i)
    (x0 x1 : Vec F S8192x128 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x128) hz, View.readCov_unit_zero (S := S1x128) _ hz]
  simp only [View.readAt_eq_ld, h2.read_unread, h3.read_unread, View.ld_unit_zero (S := S8192x128) hz,
    View.ld_unit_zero (S := S1x128) hz]

/-- A core's last step: the accumulator as at a middle step, -/
theorem acc_last (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S1x128 .f32) (h5 : a5.IsWhole) (hc0 : ¬cond0_0 i) (hc1 : cond0_1 i)
    (x0 x1 : Vec F S8192x128 .f32) (xs0 : Vec F S1x128 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S8192x128) hz,
    View.ld_unit_zero (S := S1x128) hz]

/-- and the output block at the output term of that accumulator. -/
theorem out_last (c : Dev nD) (i : grid0.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S1x128 .f32) (h5 : a5.IsWhole) (hc0 : ¬cond0_0 i) (hc1 : cond0_1 i)
    (x0 x1 : Vec F S8192x128 .f32) (xs0 : Vec F S1x128 .f32) :
    out0_C_2 c i a2 h2 a3 h3 a4 h4 a5 h5 hc0 hc1 x0 x1 xs0 = k0_pay3 (k0_pay2 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S1x128) _ hz]
  simp only [View.readAt_eq_ld, h2.read_unread, h3.read_unread, h5.read_unread, View.ld_unit_zero (S := S8192x128) hz,
    View.ld_unit_zero (S := S1x128) hz]

end Cert.KernelIdeal.Pieces

end
-- ==== Proof.Spec.lean ====
/-
  The mathematics of the pairwise log-softmax loss, with no program in sight.

  A row holds two scores `s` and `a`. One side computes, per row,
  `(s + a) - 2 · (M + log (exp (s - M) + exp (a - M)))` with `M = max s a`; the other computes the two
  log-probabilities `(s - M) - L` and `(a - M) - L` with `L = log (0 + (exp (s - M) + exp (a - M)))` and adds them.
  For real scores these agree: `2 · (M + L) = 2M + 2L` needs finite numbers, which is where the
  finiteness of the inputs is used.

  The rows are then summed. One side sums all `2^24` rows at once; the other sums them tile by tile:
  row `n` is written `((8c + s) · 8192 + r) · 128 + l`, and the sums run over the rows `r` of a tile, the
  tiles `s` of a core, the lanes `l` and the two cores `c`. Addition of extended reals is commutative and
  associative, so the two orders give one sum.
-/
import Idealize.ShloMosaic.PureOps.Ideal
import Idealize.ShloMosaic.PureOps.Ideal.Laws
import Idealize.ShloMosaic.Lib.ValueIdx

noncomputable section

open scoped BigOperators

namespace Cert.PairLoss

open Idealize.ShloMosaic

/-! ## The words -/

/-- The f32 word `0x40000000` is the number two. -/
theorem two_word : Ideal.ofBits .f32 0x40000000#32 = ((2 : ℝ) : EReal) := by
  simp [Ideal.ofBits, Ideal.ieee, -EReal.coe_mul]; norm_num

/-- The inclusion of the reals into the extended reals preserves `max`. -/
theorem coe_max (x y : ℝ) : ((max x y : ℝ) : EReal) = max (x : EReal) (y : EReal) :=
  EReal.coe_strictMono.monotone.map_max

/-- The f32 word `0xFF800000` is `-∞`. -/
theorem ninf_word : Ideal.ofBits .f32 0xFF800000#32 = ⊥ := by
  simp [Ideal.ofBits, Ideal.ieee]

/-! ## One row -/

/-- A row's contribution as the tiled side computes it. -/
def rowK (s a : EReal) : EReal :=
  (s + a) - Ideal.ofBits .f32 0x40000000#32
    * (max s a + Ideal.log (Ideal.exp (s - max s a) + Ideal.exp (a - max s a)))

/-- The row maximum as the other side computes it: a fold of `max` from `-∞` over the two entries, then one more `max` with `-∞`. -/
def rowMax (s a : EReal) : EReal :=
  max (Ideal.ofBits .f32 0xFF800000#32) (max s (max a (Ideal.ofBits .f32 0xFF800000#32)))

/-- The log-probability of the entry `x` of the row `(s, a)`. -/
def logProb (s a x : EReal) : EReal :=
  (x - rowMax s a)
    - Ideal.log (Ideal.ofBits .f32 0x00000000#32 + (Ideal.exp (s - rowMax s a) + Ideal.exp (a - rowMax s a)))

theorem rowMax_eq (s a : EReal) : rowMax s a = max s a := by
  unfold rowMax
  rw [ninf_word, max_bot_left, max_bot_right]

/-- For real scores the two log-probabilities of a row add up to the tiled side's row term. -/
theorem logProb_add (s a : ℝ) : logProb s a s + logProb s a a = rowK s a := by
  unfold logProb rowK
  rw [rowMax_eq, Ideal.ofBits_zero_f32, zero_add, two_word, ← coe_max, ← EReal.coe_sub, ← EReal.coe_sub,
    Ideal.exp_coe, Ideal.exp_coe, ← EReal.coe_add, Ideal.log_coe,
    if_neg (not_le.mpr (add_pos (Real.exp_pos _) (Real.exp_pos _)))]
  rw [← EReal.coe_sub, ← EReal.coe_sub, ← EReal.coe_add, ← EReal.coe_add, ← EReal.coe_add, ← EReal.coe_mul, ← EReal.coe_sub]
  congr 1
  ring

/-! ## The order of summation -/

/-- A sum over the first `m · n` naturals, cut into `m` runs of `n`. -/
theorem sum_range_mul {M : Type*} [AddCommMonoid M] (m n : ℕ) (g : ℕ → M) :
    ∑ k ∈ Finset.range (m * n), g k = ∑ x ∈ Finset.range m, ∑ y ∈ Finset.range n, g (x * n + y) := by
  induction m with
  | zero => simp
  | succ m ih => rw [Nat.succ_mul, Finset.sum_range_add, ih, Finset.sum_range_succ]

/-- All `2^24` rows, summed tile by tile: cores, then lanes, then a core's tiles, then a tile's rows. -/
theorem sum_rows_tiled (g : ℕ → EReal) :
    ∑ n ∈ Finset.range 16777216, g n
      = ∑ c ∈ Finset.range 2, ∑ l ∈ Finset.range 128, ∑ s ∈ Finset.range 8, ∑ r ∈ Finset.range 8192,
          g (((8 * c + s) * 8192 + r) * 128 + l) := by
  rw [show (16777216 : ℕ) = 131072 * 128 from rfl, sum_range_mul,
    show (131072 : ℕ) = 16 * 8192 from rfl, sum_range_mul,
    show (16 : ℕ) = 2 * 8 from rfl, sum_range_mul]
  refine Finset.sum_congr rfl fun c _ => ?_
  calc ∑ s ∈ Finset.range 8, ∑ r ∈ Finset.range 8192, ∑ l ∈ Finset.range 128, g (((c * 8 + s) * 8192 + r) * 128 + l)
      = ∑ s ∈ Finset.range 8, ∑ l ∈ Finset.range 128, ∑ r ∈ Finset.range 8192, g (((c * 8 + s) * 8192 + r) * 128 + l) :=
        Finset.sum_congr rfl fun s _ => Finset.sum_comm
    _ = ∑ l ∈ Finset.range 128, ∑ s ∈ Finset.range 8, ∑ r ∈ Finset.range 8192, g (((c * 8 + s) * 8192 + r) * 128 + l) :=
        Finset.sum_comm
    _ = _ := by simp only [Nat.mul_comm c 8]

end Cert.PairLoss

end
-- ==== Proof.Payload.lean ====
/-
  The grid step's two terms, read at an index over the extended reals.

  The accumulation term at lane `l` is the accumulator it starts from plus the sum, over the 8192 rows of the
  tile, of the row term of the two scores at (row, `l`): the column sum of a tile is a plain finite sum, and
  everything before it acts entry by entry. The zero row is zero at every lane. The output term at the block's
  corner (0, 0) is the sum of the accumulator over its 128 lanes: the two coordinate tests hold there, so the
  selection keeps the total.
-/
import proofs.«123829_j19825569038545_2_alg».proof.Proof.Gen.KernelIdeal.Skeleton
import proofs.«123829_j19825569038545_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen Cert.PairLoss

/-- The zero row is zero at every lane. -/
theorem zero_row (u : Fin 1) (l : Fin 128) : k0_pay1 (F := Ideal) (ix2 u l) = 0 := by
  unfold k0_pay1
  rw [shapeCast_self]
  exact Ideal.ofBits_zero_f32

/-- Lane `l` of the column sums, with row `k` put back, is the tile's entry (k, l). -/
theorem lift_rows (h : S8192x128.Reduces [0] S128) (l : Fin 128) (k : Fin 8192) :
    h.lift (ix1 l) k = ix2 k l := by
  funext c; apply Fin.ext
  fin_cases c <;> rfl

/-- The accumulation term at lane `l`. -/
theorem acc_apply (x0 x1 : Vec Ideal S8192x128 .f32) (xs : Vec Ideal S1x128 .f32) (u : Fin 1) (l : Fin 128) :
    k0_pay2 x0 x1 xs (ix2 u l) = xs (ix2 u l) + ∑ r : Fin 8192, rowK (x0 (ix2 r l)) (x1 (ix2 r l)) := by
  unfold k0_pay2
  rw [shapeCast_self, shapeCast_self, shapeCast_self, addf_apply]
  refine congrArg (xs (ix2 u l) + ·) ?_
  refine (shapeCast_a_1a_apply _ shapeCasts_S128_S1x128 u l).trans ?_
  refine (Ideal.multiReduction_add_single _ 0x00000000#32 reduces_S8192x128_S128 (.inl rfl) rfl (ix1 l)).trans ?_
  show ∑ k : Fin 8192, _ = _
  refine Finset.sum_congr rfl fun k _ => ?_
  have e := lift_rows reduces_S8192x128_S128 l k
  rw [e]
  rfl

/-- Lane 0 … 127 of the one-row accumulator, with lane `k` put back at row 0. -/
theorem lift_lanes (h : S1x128.Reduces [1] S1) (k : Fin 128) :
    h.lift (ix1 (0 : Fin 1)) k = ix2 (0 : Fin 1) k := by
  funext c; apply Fin.ext
  fin_cases c <;> rfl

/-- The output term at the block's corner is the accumulator's total over the lanes. -/
theorem out_corner (v : Vec Ideal S1x128 .f32) :
    k0_pay3 v (ix2 (0 : Fin 8) (0 : Fin 128)) = ∑ l : Fin 128, v (ix2 (0 : Fin 1) l) := by
  unfold k0_pay3
  rw [shapeCast_self, select_apply]
  have hc : (andi (cmpi .eq (iota .tc S8x128 32 [0] iota_S8x128_d0_w32) (broadcast S8x128 0#32))
      (cmpi .eq (iota .tc S8x128 32 [1] iota_S8x128_d1_w32) (broadcast S8x128 0#32))) (ix2 (0 : Fin 8) (0 : Fin 128)) = 1#1 := by
    show IntOp.andi (IntOp.cmpi .eq (iota .tc S8x128 32 [0] iota_S8x128_d0_w32 (ix2 (0 : Fin 8) (0 : Fin 128))) 0#32)
      (IntOp.cmpi .eq (iota .tc S8x128 32 [1] iota_S8x128_d1_w32 (ix2 (0 : Fin 8) (0 : Fin 128))) 0#32) = 1#1
    rw [iota_single_apply, iota_single_apply]
    rfl
  rw [hc, select_one]
  refine (broadcastTo_apply _ broadcasts_S1x1_S8x128 (ix2 (0 : Fin 8) (0 : Fin 128)) (ix2 (0 : Fin 1) (0 : Fin 1)) fun ax => ?_).trans ?_
  · match ax with
    | ⟨0, _⟩ => rfl
    | ⟨1, _⟩ => rfl
  refine (shapeCast_a_1a_apply _ shapeCasts_S1_S1x1 (0 : Fin 1) (0 : Fin 1)).trans ?_
  refine (Ideal.multiReduction_add_single _ 0x00000000#32 reduces_S1x128_S1 (.inl rfl) rfl (ix1 (0 : Fin 1))).trans ?_
  show ∑ k : Fin 128, _ = _
  refine Finset.sum_congr rfl fun k _ => ?_
  have e := lift_lanes reduces_S1x128_S1 k
  rw [e]

end Cert.KernelIdeal.Payload

end
-- ==== Proof.Accum.lean ====
/-
  The accumulator over a core's eight grid steps, and the two corners of the result array.

  Grid step `n` (of sixteen: core `n / 8`, tile `n % 8` of that core) reads tile `n` of the two score arrays —
  rows `8192 n … 8192 n + 8191` of the arrays viewed with 128 lanes. After the step the lane accumulator holds,
  at lane `l`, the sum over the core's tiles so far of each tile's column sum at `l` (an induction over the
  core's steps: the first step starts from the zero row, every later one from what the step before left).
  At a core's last step the output block is the output term of the accumulator, so the corner (8c, 0) of the
  result array ends at the total of core `c`'s accumulator over the lanes.
-/
import proofs.«123829_j19825569038545_2_alg».proof.Proof.Gen.KernelIdeal.Frame
import proofs.«123829_j19825569038545_2_alg».proof.Proof.Pieces
import proofs.«123829_j19825569038545_2_alg».proof.Proof.Payload
import proofs.«123829_j19825569038545_2_alg».proof.Proof.Spec
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.PairLoss

variable (m : (ℓ : Loc nD τ sig) → Buf (Elt Ideal) ℓ)

/-- One grid step's column sum at lane `l` (zero past the grid). -/
def colSum (c : Dev nD) (n : ℕ) (l : Fin 128) : EReal :=
  if h : n < cfg0.N then
    ∑ r : Fin 8192, rowK ((iblk m c 0 ⟨n, h⟩ : Vec Ideal S8192x128 .f32) (ix2 r l))
      ((iblk m c 1 ⟨n, h⟩ : Vec Ideal S8192x128 .f32) (ix2 r l))
  else 0

/-- A core's first step leaves the accumulation term over the zero row. -/
theorem step_first (c : Dev nD) (n : ℕ) (h : n < cfg0.N) (h0 : n % 8 = 0) :
    (outsAt0 m c n h).2 = k0_pay2 (iblk m c 0 ⟨n, h⟩) (iblk m c 1 ⟨n, h⟩) (k0_pay1 (F := Ideal)) :=
  have h1 : ¬ n % 8 = 7 := by omega
  (congrArg Prod.snd (outsAt0_A m c ⟨n, h⟩ h0 h1)).trans
    (Pieces.acc_first c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
      scM0_0 (Memref.isWhole_whole _) ((hcond0_0 ⟨n, h⟩).mpr h0) (fun hh => h1 ((hcond0_1 ⟨n, h⟩).mp hh))
      (iblk m c 0 ⟨n, h⟩) (iblk m c 1 ⟨n, h⟩))

/-- Every later step leaves the accumulation term over what the step before left. -/
theorem step_next (c : Dev nD) (n : ℕ) (h : n + 1 < cfg0.N) (h0 : ¬ (n + 1) % 8 = 0) :
    (outsAt0 m c (n + 1) h).2
      = k0_pay2 (iblk m c 0 ⟨n + 1, h⟩) (iblk m c 1 ⟨n + 1, h⟩) (outsAt0 m c n (Nat.lt_of_succ_lt h)).2 := by
  by_cases h1 : (n + 1) % 8 = 7
  · exact (congrArg Prod.snd (outsAt0_C m c ⟨n + 1, h⟩ h0 h1)).trans
      (Pieces.acc_last c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) (fun hh => h0 ((hcond0_0 ⟨n + 1, h⟩).mp hh))
        ((hcond0_1 ⟨n + 1, h⟩).mpr h1) (iblk m c 0 ⟨n + 1, h⟩) (iblk m c 1 ⟨n + 1, h⟩) (outsAt0 m c n (Nat.lt_of_succ_lt h)).2)
  · exact (congrArg Prod.snd (outsAt0_B m c ⟨n + 1, h⟩ h0 h1)).trans
      (Pieces.acc_mid c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) (fun hh => h0 ((hcond0_0 ⟨n + 1, h⟩).mp hh))
        (fun hh => h1 ((hcond0_1 ⟨n + 1, h⟩).mp hh)) (iblk m c 0 ⟨n + 1, h⟩) (iblk m c 1 ⟨n + 1, h⟩)
        (outsAt0 m c n (Nat.lt_of_succ_lt h)).2)

/-- After tile `j` of core `q` the accumulator holds, at every lane, the column sums of the core's tiles `0 … j`. -/
theorem acc_eq (c : Dev nD) (q : ℕ) : ∀ (j : ℕ), j < 8 → ∀ (h : 8 * q + j < cfg0.N) (u : Fin 1) (l : Fin 128),
    ((outsAt0 m c (8 * q + j) h).2 : Vec Ideal S1x128 .f32) (ix2 u l) = ∑ s ∈ Finset.range (j + 1), colSum m c (8 * q + s) l
  | 0, _, h, u, l => by
    rw [step_first m c (8 * q + 0) h (by omega), Payload.acc_apply, Payload.zero_row, zero_add, Finset.sum_range_one]
    unfold colSum
    rw [dif_pos h]
  | j + 1, hj, h, u, l => by
    have h0 : ¬ (8 * q + j + 1) % 8 = 0 := by omega
    have e := step_next m c (8 * q + j) h h0
    rw [show (outsAt0 m c (8 * q + (j + 1)) h).2 = (outsAt0 m c (8 * q + j + 1) h).2 from rfl, e, Payload.acc_apply,
      acc_eq c q j (by omega) (Nat.lt_of_succ_lt h) u l, Finset.sum_range_succ _ (j + 1)]
    refine congrArg (_ + ·) ?_
    unfold colSum
    rw [dif_pos (show 8 * q + (j + 1) < cfg0.N from h)]
    rfl

/-- At a core's last step the output block is the output term of the accumulator the step leaves. -/
theorem out_eq (c : Dev nD) (n : ℕ) (h : n < cfg0.N) (h7 : n % 8 = 7) :
    (outsAt0 m c n h).1 = k0_pay3 (outsAt0 m c n h).2 := by
  have h0 : ¬ n % 8 = 0 := by omega
  have e := outsAt0_C m c ⟨n, h⟩ h0 h7
  rw [show outsAt0 m c n h = outsAt0 m c (⟨n, h⟩ : Fin cfg0.N).val (⟨n, h⟩ : Fin cfg0.N).isLt from rfl, e]
  dsimp only
  rw [Pieces.out_last, Pieces.acc_last]

end Cert.KernelIdeal.Accum

end
-- ==== Proof.Corners.lean ====
/-
  The two corners of the result array after the run.

  The result array has sixteen rows of 128 lanes, one block of eight rows per core; a core's block is written
  back once, after the core's last grid step (steps 7 and 15). What is written back is the output term of the
  accumulator the step leaves, so the whole array is one function of the two final accumulators, and its
  entries (0, 0) and (8, 0) — the corners of the two blocks — are the two cores' totals: the sum over the lanes
  of the sum over the core's eight tiles of the tile's column sum.
-/
import proofs.«123829_j19825569038545_2_alg».proof.Proof.Accum

noncomputable section

open scoped BigOperators
open Idealize.ShloMosaic Idealize.ShloMosaic.TcCoe Idealize.SL.Sem Idealize.ShloMosaic.ValueIdx
open Idealize.ShloMosaic.Pipeline (Dat)

namespace Cert.KernelIdeal.Corners

open Cert.KernelIdeal Cert.KernelIdeal.Gen Cert.PairLoss Cert.KernelIdeal.Accum

variable (m : (ℓ : Loc nD τ sig) → Buf (Elt Ideal) ℓ)

theorem lt7 : 7 < cfg0.N := by rw [show cfg0.N = 16 from N_0]; decide
theorem lt15 : 15 < cfg0.N := by rw [show cfg0.N = 16 from N_0]; decide

/-- The output window's block at step `t` is block `t / 8` of the result array. -/
theorem out_index : ∀ t : Fin cfg0.N, win0_2.index t 0 = t.val / 8 ∧ win0_2.index t 1 = 0 :=
  (by decide +kernel : ∀ t : Fin grid0.N, win0_2.index t 0 = t.val / 8 ∧ win0_2.index t 1 = 0)

/-- The result array as one function of the two cores' final accumulators. -/
def whole (c : Dev nD) : S16x128.Idx → EReal := fun i =>
  if (i 0).val < 8 then
    k0_pay3 (outsAt0 m c 7 lt7).2 (ix2 (⟨(i 0).val % 8, Nat.mod_lt _ (by decide)⟩ : Fin 8) (⟨(i 1).val, idx2_lt1 i⟩ : Fin 128))
  else
    k0_pay3 (outsAt0 m c 15 lt15).2 (ix2 (⟨(i 0).val % 8, Nat.mod_lt _ (by decide)⟩ : Fin 8) (⟨(i 1).val, idx2_lt1 i⟩ : Fin 128))

/-- That function at row `8b + p`, lane `q`: the output term of core `b`'s final accumulator at (p, q). -/
theorem whole_at (c : Dev nD) (i : S16x128.Idx) (b : ℕ) (p : Fin 8) (q : Fin 128) (hb : b < 2)
    (h0 : (i 0).val = b * 8 + p.val) (h1 : (i 1).val = q.val) :
    whole m c i = if b = 0 then k0_pay3 (outsAt0 m c 7 lt7).2 (ix2 p q) else k0_pay3 (outsAt0 m c 15 lt15).2 (ix2 p q) := by
  have hp := p.isLt
  unfold whole
  have e : (ix2 (⟨(i 0).val % 8, Nat.mod_lt _ (by decide)⟩ : Fin 8) (⟨(i 1).val, idx2_lt1 i⟩ : Fin 128) : S8x128.Idx) = ix2 p q := by
    funext a; apply Fin.ext
    match a with
    | ⟨0, _⟩ => show (i 0).val % 8 = p.val; rw [h0]; omega
    | ⟨1, _⟩ => exact h1
  rw [e]
  by_cases hb0 : b = 0
  · rw [if_pos hb0, if_pos (by rw [h0, hb0]; omega)]
  · rw [if_neg hb0, if_neg (by rw [h0]; omega)]

/-- What a write-back writes is its block of that function. -/
theorem flushed_eq (c : Dev nD) (t : Fin cfg0.N) (hf : (cfg0.win 2).flush t = true) :
    (dats m 0 c).flushed 2 t = ((cfg0.win 2).blk t).view.read (Elt Ideal) (whole m c) := by
  have hN : cfg0.N = 16 := N_0
  have h7 : t.val % 8 = 7 := (flush0_2 t).mp hf
  have ht : t.val = 7 ∨ t.val = 15 := by have := t.isLt; omega
  show (cfg0.win 2).cut (grid0.coords t) ((dats m 0 c).after 2 t) = _
  rw [after0_2, out_eq m c t.val t.isLt h7]
  rcases ht with h | h
  · obtain rfl : t = ⟨7, lt7⟩ := Fin.ext h
    funext y
    rw [View.read_apply]
    have hy0 : (y 0).val < 8 := (y 0).isLt
    have hy1 : (y 1).val < 128 := (y 1).isLt
    show k0_pay3 (outsAt0 m c 7 lt7).2 ((cfg0.win 2).xinj (grid0.coords ⟨7, lt7⟩) y)
      = whole m c (((cfg0.win 2).blk ⟨7, lt7⟩).view.emb y)
    rw [whole_at m c _ 0 ⟨(y 0).val, hy0⟩ ⟨(y 1).val, hy1⟩ (by decide)
      (by show win0_2.index ⟨7, lt7⟩ 0 * 8 + 1 * (y 0).val = 0 * 8 + (y 0).val; rw [(out_index ⟨7, lt7⟩).1]; show 7 / 8 * 8 + 1 * (y 0).val = _; omega)
      (by show win0_2.index ⟨7, lt7⟩ 1 * 128 + 1 * (y 1).val = (y 1).val; rw [(out_index ⟨7, lt7⟩).2]; omega), if_pos rfl]
    refine congrArg (k0_pay3 _) (funext fun a => Fin.ext ?_)
    match a with
    | ⟨0, _⟩ => rfl
    | ⟨1, _⟩ => rfl
  · obtain rfl : t = ⟨15, lt15⟩ := Fin.ext h
    funext y
    rw [View.read_apply]
    have hy0 : (y 0).val < 8 := (y 0).isLt
    have hy1 : (y 1).val < 128 := (y 1).isLt
    show k0_pay3 (outsAt0 m c 15 lt15).2 ((cfg0.win 2).xinj (grid0.coords ⟨15, lt15⟩) y)
      = whole m c (((cfg0.win 2).blk ⟨15, lt15⟩).view.emb y)
    rw [whole_at m c _ 1 ⟨(y 0).val, hy0⟩ ⟨(y 1).val, hy1⟩ (by decide)
      (by show win0_2.index ⟨15, lt15⟩ 0 * 8 + 1 * (y 0).val = 1 * 8 + (y 0).val; rw [(out_index ⟨15, lt15⟩).1]; show 15 / 8 * 8 + 1 * (y 0).val = _; omega)
      (by show win0_2.index ⟨15, lt15⟩ 1 * 128 + 1 * (y 1).val = (y 1).val; rw [(out_index ⟨15, lt15⟩).2]; omega), if_neg (by decide)]
    refine congrArg (k0_pay3 _) (funext fun a => Fin.ext ?_)
    match a with
    | ⟨0, _⟩ => rfl
    | ⟨1, _⟩ => rfl

/-- A core's total: over the lanes, over the core's eight tiles, the tile's column sum. -/
def coreTotal (c : Dev nD) (b : ℕ) : EReal :=
  ∑ l : Fin 128, ∑ s ∈ Finset.range 8, colSum m c (8 * b + s) l

/-- The corner of the first block. -/
theorem corner0 (c : Dev nD) :
    ((dats m 0 c).arrAt 2 cfg0.N : S16x128.Idx → EReal) (ix2 (0 : Fin 16) (0 : Fin 128)) = coreTotal m c 0 := by
  have hmem : (ix2 (0 : Fin 16) (0 : Fin 128) : S16x128.Idx) ∈ ((cfg0.win 2).blk ⟨7, lt7⟩).view.set := by
    show (ix2 (0 : Fin 16) (0 : Fin 128) : S16x128.Idx) ∈ ((View.whole main_v2).slice (win0_2.rect ⟨7, lt7⟩)).set
    rw [View.set_slice_whole, Rect.mem_set_unit]
    intro a
    match a with
    | ⟨0, _⟩ =>
      show win0_2.index ⟨7, lt7⟩ 0 * win0_2.size 0 ≤ 0 ∧ 0 < win0_2.index ⟨7, lt7⟩ 0 * win0_2.size 0 + win0_2.xsize (grid0.coords ⟨7, lt7⟩) 0
      rw [(out_index ⟨7, lt7⟩).1]
      show 7 / 8 * 8 ≤ 0 ∧ 0 < 7 / 8 * 8 + 8
      omega
    | ⟨1, _⟩ =>
      show win0_2.index ⟨7, lt7⟩ 1 * win0_2.size 1 ≤ 0 ∧ 0 < win0_2.index ⟨7, lt7⟩ 1 * win0_2.size 1 + win0_2.xsize (grid0.coords ⟨7, lt7⟩) 1
      rw [(out_index ⟨7, lt7⟩).2]
      show 0 * 128 ≤ 0 ∧ 0 < 0 * 128 + 128
      omega
  have e := (dats m 0 c).arrAt_apply_of_mem 2 (whole m c) (flushed_eq m c) cfg0.N ⟨7, lt7⟩ (ix2 (0 : Fin 16) (0 : Fin 128)) lt7
    ((flush0_2 ⟨7, lt7⟩).mpr rfl) hmem
  have e2 : whole m c (ix2 (0 : Fin 16) (0 : Fin 128)) = coreTotal m c 0 := by
    rw [whole_at m c _ 0 (0 : Fin 8) (0 : Fin 128) (by decide) rfl rfl, if_pos rfl, Payload.out_corner]
    unfold coreTotal
    exact Finset.sum_congr rfl fun l _ => acc_eq m c 0 7 (by decide) lt7 (0 : Fin 1) l
  exact e.trans e2

/-- The corner of the second block. -/
theorem corner1 (c : Dev nD) :
    ((dats m 0 c).arrAt 2 cfg0.N : S16x128.Idx → EReal) (ix2 (8 : Fin 16) (0 : Fin 128)) = coreTotal m c 1 := by
  have hmem : (ix2 (8 : Fin 16) (0 : Fin 128) : S16x128.Idx) ∈ ((cfg0.win 2).blk ⟨15, lt15⟩).view.set := by
    show (ix2 (8 : Fin 16) (0 : Fin 128) : S16x128.Idx) ∈ ((View.whole main_v2).slice (win0_2.rect ⟨15, lt15⟩)).set
    rw [View.set_slice_whole, Rect.mem_set_unit]
    intro a
    match a with
    | ⟨0, _⟩ =>
      show win0_2.index ⟨15, lt15⟩ 0 * win0_2.size 0 ≤ 8 ∧ 8 < win0_2.index ⟨15, lt15⟩ 0 * win0_2.size 0 + win0_2.xsize (grid0.coords ⟨15, lt15⟩) 0
      rw [(out_index ⟨15, lt15⟩).1]
      show 15 / 8 * 8 ≤ 8 ∧ 8 < 15 / 8 * 8 + 8
      omega
    | ⟨1, _⟩ =>
      show win0_2.index ⟨15, lt15⟩ 1 * win0_2.size 1 ≤ 0 ∧ 0 < win0_2.index ⟨15, lt15⟩ 1 * win0_2.size 1 + win0_2.xsize (grid0.coords ⟨15, lt15⟩) 1
      rw [(out_index ⟨15, lt15⟩).2]
      show 0 * 128 ≤ 0 ∧ 0 < 0 * 128 + 128
      omega
  have e := (dats m 0 c).arrAt_apply_of_mem 2 (whole m c) (flushed_eq m c) cfg0.N ⟨15, lt15⟩ (ix2 (8 : Fin 16) (0 : Fin 128)) lt15
    ((flush0_2 ⟨15, lt15⟩).mpr rfl) hmem
  have e2 : whole m c (ix2 (8 : Fin 16) (0 : Fin 128)) = coreTotal m c 1 := by
    rw [whole_at m c _ 1 (0 : Fin 8) (0 : Fin 128) (by decide) rfl rfl, if_neg (by decide), Payload.out_corner]
    unfold coreTotal
    exact Finset.sum_congr rfl fun l _ => acc_eq m c 1 7 (by decide) lt15 (0 : Fin 1) l
  exact e.trans e2

end Cert.KernelIdeal.Corners

end
-- ==== Proof.KernelValue.lean ====
/-
  The tiled program's result.

  After the grid the program reads the two corners (0, 0) and (8, 0) of the result array, adds them, divides by
  the number of log-probabilities (the f32 word `0x4C000000`) and negates. The corners are the two cores' totals,
  so the result is minus the quotient of their sum.
-/
import proofs.«123829_j19825569038545_2_alg».proof.Proof.Corners
import Idealize.ShloMosaic.Lib.StableHlo.Run

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.Result

open Cert.KernelIdeal Cert.KernelIdeal.Gen Cert.PairLoss Cert.KernelIdeal.Accum Cert.KernelIdeal.Corners

variable (m : (ℓ : Loc nD τ sig) → Buf (Elt Ideal) ℓ)

/-- A one-by-one array viewed as a scalar reads its one entry. -/
theorem scalar_of_1x1 {α : Type} (v : S1x1.Idx → α) (h : S1x1.ShapeCasts S_) (j : S_.Idx) :
    shapeCast S_ v h j = v (ix2 (0 : Fin 1) (0 : Fin 1)) :=
  shapeCast_apply v h j _ (by
    have h1 := (S1x1.rowMajor (ix2 (0 : Fin 1) (0 : Fin 1))).isLt
    have h2 := (S_.rowMajor j).isLt
    have e1 : S1x1.numel = 1 := by decide
    have e2 : S_.numel = 1 := by decide
    omega)

/-- The program's result: minus the quotient of the two cores' totals by the count. -/
def result (c : Dev nD) : S_.Idx → EReal := fun _ =>
  -(Ideal.div (coreTotal m c 0 + coreTotal m c 1) (Ideal.ofBits .f32 0x4C000000#32))

theorem tail_eq (c : Dev nD) :
    Pipeline.afterTail₀ cfgs (dats m) 0 (V0 m) [hostOps1] c main_v9 = result m c := by
  unfold Pipeline.afterTail₀
  show StableHlo.after hostOps1 _ (Proc.devRef .tc main_v9) = _
  after_results
  rw [show Pipeline.withArrays (cfgs 0).spec c (V0 m c) (fun w => (dats m 0 c).arrAt w (cfgs 0).N) (Proc.devRef .tc main_v2)
      = (dats m 0 c).arrAt 2 cfg0.N from Pipeline.withArrays_arr spec0 launch0.win.arr_inj c _ _ 2]
  have c0 := corner0 m c
  have c1 := corner1 m c
  obtain ⟨arr, harr⟩ : ∃ arr : S16x128.Idx → EReal, (dats m 0 c).arrAt 2 cfg0.N = arr := ⟨_, rfl⟩
  rw [harr] at c0 c1 ⊢
  clear harr
  funext j
  have e0 : shapeCast S_ (extractStridedSlice S1x1 ![0, 0] (arr : S16x128.Idx → EReal) slices_S16x128_S1x1_0_0)
      shapeCasts_S1x1_S_ j = coreTotal m c 0 := by
    rw [scalar_of_1x1]
    exact (extractStridedSlice_apply ![0, 0] (arr : S16x128.Idx → EReal) slices_S16x128_S1x1_0_0 (ix2 (0 : Fin 1) (0 : Fin 1))
      (ix2 (0 : Fin 16) (0 : Fin 128)) fun a => by
        match a with
        | ⟨0, _⟩ => rfl
        | ⟨1, _⟩ => rfl).trans c0
  have e1 : shapeCast S_ (extractStridedSlice S1x1 ![8, 0] (arr : S16x128.Idx → EReal) slices_S16x128_S1x1_8_0)
      shapeCasts_S1x1_S_ j = coreTotal m c 1 := by
    rw [scalar_of_1x1]
    exact (extractStridedSlice_apply ![8, 0] (arr : S16x128.Idx → EReal) slices_S16x128_S1x1_8_0 (ix2 (0 : Fin 1) (0 : Fin 1))
      (ix2 (8 : Fin 16) (0 : Fin 128)) fun a => by
        match a with
        | ⟨0, _⟩ => rfl
        | ⟨1, _⟩ => rfl).trans c1
  show -(Ideal.div (shapeCast S_ (extractStridedSlice S1x1 ![0, 0] (arr : S16x128.Idx → EReal) slices_S16x128_S1x1_0_0)
      shapeCasts_S1x1_S_ j
    + shapeCast S_ (extractStridedSlice S1x1 ![8, 0] (arr : S16x128.Idx → EReal) slices_S16x128_S1x1_8_0)
      shapeCasts_S1x1_S_ j) (Ideal.ofBits .f32 0x4C000000#32)) = _
  rw [e0, e1]
  rfl

/-- The run, read: the result at that value, the three arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.LibFinite.lean ====
/-
  General facts about finiteness on the extended reals, for certificates whose precondition says that every
  float input is finite and whose algebra (distributivity, cancellation) needs it.

  * `coe_sum`: the inclusion of the reals into the extended reals commutes with finite sums, so an identity
    between sums of finite entries can be proved over the reals and carried back.
  * `ofBool_one`, `inf_word`, `finite_of_abs_lt`: one element of a printed `|x| < +∞` test, read back — the
    f32 word `0x7F800000` is `+∞`, `|x|` is `max x (-x)`, and that is below `+∞` only when `x` is a real number.
-/
import Idealize.ShloMosaic.PureOps.Ideal
import Idealize.ShloMosaic.PureOps.Ideal.Laws

namespace Cert.LibFinite

open Idealize.ShloMosaic

/-- The inclusion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A Boolean read as a one-bit word is the word 1 exactly when it is true. -/
theorem ofBool_one (b : Bool) : BitVec.ofBool b = 1#1 ↔ b = true := by cases b <;> decide

/-- The f32 word `0x7F800000` is `+∞`. -/
theorem inf_word : Ideal.ofBits .f32 0x7F800000#32 = ⊤ := by simp [Ideal.ofBits, Ideal.ieee]

/-- An extended real whose absolute value compares below `+∞` is neither infinity: `|x| = max x (-x)` is `+∞` at
    both. (The host's and the kernel's absolute value are one function on the extended reals.) -/
theorem finite_of_abs_lt (x : EReal)
    (h : FloatOps.cmpf (F := Ideal) (φ := .f32) .olt (FloatOps.hostAbsf (F := Ideal) (φ := .f32) x)
      (Ideal.ofBits .f32 0x7F800000#32) = 1#1) : x ≠ ⊤ ∧ x ≠ ⊥ := by
  rw [Ideal.hostAbsf_def, Ideal.absf_def, Ideal.cmpf_def, inf_word] at h
  have h2 : BitVec.ofBool (decide (max x (-x) < ⊤)) = 1#1 := h
  have h' : max x (-x) < ⊤ := of_decide_eq_true ((ofBool_one _).1 h2)
  induction x using EReal.rec with
  | bot => simp at h'
  | top => simp at h'
  | coe r => exact ⟨EReal.coe_ne_top r, EReal.coe_ne_bot r⟩

end Cert.LibFinite
-- ==== Proof.Finite.lean ====
/-
  The precondition, read back: every entry of the two score arrays is a real number.

  The precondition is the conjunction of three tests "every |x| is below +∞", one per argument. A conjunction
  of one-bit words that is 1 has every conjunct 1; an all-reduction by `and` that is 1 had a 1 at every index;
  and `|x| < +∞` holds of an extended real only when it is neither infinity.
-/
import proofs.«123829_j19825569038545_2_alg».proof.Pre_finite_inputs
import proofs.«123829_j19825569038545_2_alg».proof.Proof.LibFinite
import Idealize.ShloMosaic.Lib.ReduceAll
import Idealize.ShloMosaic.Lib.ValueIdx

noncomputable section

open Idealize.ShloMosaic

namespace Cert.FiniteInputs

open Cert.Pre_finite_inputs

instance : Subsingleton S_.Idx := ⟨fun a b => funext fun d => d.elim0⟩

variable [Cert.Pre_finite_inputs.Facts]

/-- Under the precondition the second and third arguments hold real numbers only. -/
theorem scores_finite (x0 x1 x2 : FVec Ideal S16777216x1 .f32) (h : fn (F := Ideal) x0 x1 x2 = fun _ => 1#1) :
    (∀ i, x1 i ≠ ⊤ ∧ x1 i ≠ ⊥) ∧ (∀ i, x2 i ≠ ⊤ ∧ x2 i ≠ ⊥) := by
  have h' := congrFun h ValueIdx.ix0
  dsimp only [fn] at h'
  obtain ⟨h01, h2⟩ := IntOp.andi_eq_one.1 h'
  obtain ⟨h0, h1⟩ := IntOp.andi_eq_one.1 h01
  refine ⟨fun i => ?_, fun i => ?_⟩
  · exact LibFinite.finite_of_abs_lt (x1 i) (Host.reduce_andi_all _ _ _ _ _ h1 i)
  · exact LibFinite.finite_of_abs_lt (x2 i) (Host.reduce_andi_all _ _ _ _ _ h2 i)

end Cert.FiniteInputs

end
-- ==== Proof.Blocks.lean ====
/-
  A tile's entry is an entry of a score argument.

  Before the grid the program views each score column of `2^24` rows as 131072 rows of 128 lanes (the same
  row-major order). Grid step `t` reads tile `t` of that view: rows `8192 t … 8192 t + 8191`. So the tile's
  entry (r, l) at step `t` is the argument's row `(8192 t + r) · 128 + l`.
-/
import proofs.«123829_j19825569038545_2_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx Idealize.ShloMosaic.StableHlo

namespace Cert.KernelIdeal.Blocks

open Cert.KernelIdeal Cert.KernelIdeal.Gen

variable (m : (ℓ : Loc nD τ sig) → Buf (Elt Ideal) ℓ)

/-- The two input windows' block at step `t` is block `t` of rows, all lanes. -/
theorem in_index : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

/-- A column of `2^24` rows viewed with 128 lanes reads, at (R, l), the column's row `128 R + l`. -/
theorem lanes_apply {α : Type} (x : S16777216x1.Idx → α) (R : Fin 131072) (l : Fin 128) (n : Fin 16777216)
    (hn : n.val = R.val * 128 + l.val) :
    shapeCast S131072x128 x shapeCasts_S16777216x1_S131072x128 (ix2 R l) = x (ix2 n (0 : Fin 1)) :=
  shapeCast_apply x _ _ _ (by
    rw [Shape.rowMajor_val_two, Shape.rowMajor_val_two]
    show n.val * 1 + 0 = R.val * 128 + l.val
    omega)

/-- What the grid finds in the first window's array: the second argument viewed with 128 lanes. -/
theorem V_syn (c : Dev nD) : (V m c main_v0 : S131072x128.Idx → EReal)
    = shapeCast S131072x128 (m ((c : Thread nD τ).loc main_arg1)) shapeCasts_S16777216x1_S131072x128 := by
  show StableHlo.after hostOps0 (fun b => m (c, b)) (Proc.devRef .tc main_v0) = _
  after_results
  rfl

/-- What the grid finds in the second window's array: the third argument viewed with 128 lanes. -/
theorem V_ant (c : Dev nD) : (V m c main_v1 : S131072x128.Idx → EReal)
    = shapeCast S131072x128 (m ((c : Thread nD τ).loc main_arg2)) shapeCasts_S16777216x1_S131072x128 := by
  show StableHlo.after hostOps0 (fun b => m (c, b)) (Proc.devRef .tc main_v1) = _
  after_results
  rfl

/-- The first window's tile at step `t`, entry (r, l). -/
theorem syn_apply (c : Dev nD) (t : Fin cfg0.N) (r : Fin 8192) (l : Fin 128) (n : Fin 16777216)
    (hn : n.val = (t.val * 8192 + r.val) * 128 + l.val) :
    (iblk m c 0 t : Vec Ideal S8192x128 .f32) (ix2 r l) = (m ((c : Thread nD τ).loc main_arg1) : S16777216x1.Idx → EReal) (ix2 n (0 : Fin 1)) := by
  have hN : cfg0.N = 16 := N_0
  have hR : t.val * 8192 + r.val < 131072 := by have := t.isLt; have := r.isLt; omega
  unfold iblk
  rw [View.read_apply]
  show (V m c main_v0 : S131072x128.Idx → EReal) (((cfg0.win 0).blk t).view.emb (ix2 r l)) = _
  have hemb : ((cfg0.win 0).blk t).view.emb (ix2 r l) = (ix2 (⟨t.val * 8192 + r.val, hR⟩ : Fin 131072) l : S131072x128.Idx) :=
    funext fun a => Fin.ext (by
      match a with
      | ⟨0, _⟩ => show win0_0.index t 0 * 8192 + 1 * r.val = t.val * 8192 + r.val; rw [(in_index t).1]; omega
      | ⟨1, _⟩ => show win0_0.index t 1 * 128 + 1 * l.val = l.val; rw [(in_index t).2.1]; omega)
  rw [hemb]
  exact (congrFun (V_syn m c) (ix2 (⟨t.val * 8192 + r.val, hR⟩ : Fin 131072) l)).trans
    (lanes_apply _ ⟨t.val * 8192 + r.val, hR⟩ l n hn)

/-- The second window's tile at step `t`, entry (r, l). -/
theorem ant_apply (c : Dev nD) (t : Fin cfg0.N) (r : Fin 8192) (l : Fin 128) (n : Fin 16777216)
    (hn : n.val = (t.val * 8192 + r.val) * 128 + l.val) :
    (iblk m c 1 t : Vec Ideal S8192x128 .f32) (ix2 r l) = (m ((c : Thread nD τ).loc main_arg2) : S16777216x1.Idx → EReal) (ix2 n (0 : Fin 1)) := by
  have hN : cfg0.N = 16 := N_0
  have hR : t.val * 8192 + r.val < 131072 := by have := t.isLt; have := r.isLt; omega
  unfold iblk
  rw [View.read_apply]
  show (V m c main_v1 : S131072x128.Idx → EReal) (((cfg0.win 1).blk t).view.emb (ix2 r l)) = _
  have hemb : ((cfg0.win 1).blk t).view.emb (ix2 r l) = (ix2 (⟨t.val * 8192 + r.val, hR⟩ : Fin 131072) l : S131072x128.Idx) :=
    funext fun a => Fin.ext (by
      match a with
      | ⟨0, _⟩ => show win0_1.index t 0 * 8192 + 1 * r.val = t.val * 8192 + r.val; rw [(in_index t).2.2.1]; omega
      | ⟨1, _⟩ => show win0_1.index t 1 * 128 + 1 * l.val = l.val; rw [(in_index t).2.2.2]; omega)
  rw [hemb]
  exact (congrFun (V_ant m c) (ix2 (⟨t.val * 8192 + r.val, hR⟩ : Fin 131072) l)).trans
    (lanes_apply _ ⟨t.val * 8192 + r.val, hR⟩ l n hn)

end Cert.KernelIdeal.Blocks

end
-- ==== Proof.RefValue.lean ====
/-
  The one-pass program's loss, read over the extended reals.

  Row `n` of the joined array holds the two scores `s` and `a` of row `n`. Its row maximum is the fold of `max`
  from -∞ over the two, with one more `max` with -∞; the row's sum of exponentials is zero plus the two
  exponentials; so the log-probability at (n, k) is the log-probability of entry `k` of the row `(s, a)`. The
  loss is minus the quotient by the count of zero plus the total of the log-probabilities over all rows and
  both columns, and the total over a two-column array is the sum over the rows of the two entries.
-/
import proofs.«123829_j19825569038545_2_alg».proof.Proof.RefRun
import proofs.«123829_j19825569038545_2_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.ReferenceIdeal.LossValue

open Cert.ReferenceIdeal Cert.ReferenceIdeal.Gen Cert.ReferenceIdeal.HostRun Cert.PairLoss

variable (x1 x2 : S16777216x1.Idx → EReal)

/-- A fold of `max` over two entries. -/
theorem fold_max_two (b : EReal) (f : Fin 2 → EReal) :
    (Finset.univ : Finset (Fin 2)).fold max b f = max (f 0) (max (f 1) b) := by
  have : (Finset.univ : Finset (Fin 2)) = insert 0 {1} := by decide
  rw [this, Finset.fold_insert (by decide), Finset.fold_singleton]

/-- The joined array's first column is the first score column, -/
theorem joined_left (n : Fin 16777216) :
    joined (F := Ideal) x1 x2 (ix2 n (0 : Fin 2)) = x1 (ix2 n (0 : Fin 1)) := by
  unfold joined
  exact concatenate_pair_apply_left (1 : Fin 2) x1 x2 concatenates_S16777216x1_S16777216x1_S16777216x2_d1
    (ix2 n (0 : Fin 2)) rfl (ix2 n (0 : Fin 1)) (fun b => by
      match b with
      | ⟨0, _⟩ => rfl
      | ⟨1, _⟩ => rfl)

/-- and its second column the second. -/
theorem joined_right (n : Fin 16777216) :
    joined (F := Ideal) x1 x2 (ix2 n (1 : Fin 2)) = x2 (ix2 n (0 : Fin 1)) := by
  unfold joined
  exact concatenate_pair_apply_right (1 : Fin 2) x1 x2 concatenates_S16777216x1_S16777216x1_S16777216x2_d1
    (ix2 n (1 : Fin 2)) rfl rfl (ix2 n (0 : Fin 1)) (fun b hb => by
      match b with
      | ⟨0, _⟩ => rfl
      | ⟨1, _⟩ => exact absurd rfl hb) rfl

/-- Row `n` of the two-column array, with column `k` put back. -/
theorem lift_cols (h : S16777216x2.Reduces [1] S16777216) (n : Fin 16777216) (k : Fin 2) :
    h.lift (ix1 n) k = ix2 n k := by
  funext c; apply Fin.ext
  fin_cases c <;> rfl

/-! ## The four kinds of host operation, read at an index of any operand -/

theorem log_apply {s : Shape} (y : s.Idx → EReal) (i : s.Idx) : (Host.log (F := Ideal) (φ := .f32) y) i = Ideal.log (y i) := rfl
theorem exp_apply {s : Shape} (y : s.Idx → EReal) (i : s.Idx) : (Host.exp (F := Ideal) (φ := .f32) y) i = Ideal.exp (y i) := rfl
theorem negf_apply' {s : Shape} (y : s.Idx → EReal) (i : s.Idx) : (Host.negf (F := Ideal) (φ := .f32) y) i = -(y i) := rfl
theorem divf_apply' {s : Shape} (y z : s.Idx → EReal) (i : s.Idx) :
    (Host.divf (F := Ideal) (φ := .f32) y z) i = Ideal.div (y i) (z i) := rfl

/-- A column of row values spread over the two columns reads the row's value. -/
theorem spread_apply (y : S16777216x1.Idx → EReal) (n : Fin 16777216) (k : Fin 2) :
    broadcastInDim S16777216x2 ![0, 1] bcast_S16777216x1_S16777216x2_0_1 y (ix2 n k) = y (ix2 n (0 : Fin 1)) :=
  broadcastInDim_apply _ bcast_S16777216x1_S16777216x2_0_1 y (ix2 n k) (ix2 n (0 : Fin 1)) fun a => by
    match a with
    | ⟨0, _⟩ => show n.val = if (16777216 : Nat) = 1 then 0 else n.val; rw [if_neg (by decide)]
    | ⟨1, _⟩ => show 0 = if (1 : Nat) = 1 then 0 else k.val; rw [if_pos rfl]

/-- A vector of row values stood up as a column reads the row's value. -/
theorem column_apply (y : S16777216.Idx → EReal) (n : Fin 16777216) :
    broadcastInDim S16777216x1 ![0] bcast_S16777216_S16777216x1_0 y (ix2 n (0 : Fin 1)) = y (ix1 n) :=
  broadcastInDim_apply _ bcast_S16777216_S16777216x1_0 y (ix2 n (0 : Fin 1)) (ix1 n) fun a => by
    match a with
    | ⟨0, _⟩ => show n.val = if (16777216 : Nat) = 1 then 0 else n.val; rw [if_neg (by decide)]

/-- The fold of `max` from -∞ along the two columns, at row `n`. -/
theorem rowFold_apply (y : S16777216x2.Idx → EReal) (n : Fin 16777216) :
    (Host.reduce (FloatOps.maximumf (F := Ideal) (φ := .f32)) y (constant (F := Ideal) S_ .f32 0xFF800000#32) reducesTo_S16777216x2_S16777216_d1 h_S_ : S16777216.Idx → EReal) (ix1 n)
      = max (y (ix2 n (0 : Fin 2))) (max (y (ix2 n (1 : Fin 2))) (Ideal.ofBits .f32 0xFF800000#32)) := by
  have hred : S16777216x2.Reduces [1] S16777216 := by decide
  refine (Host.reduce_eq_fold_single (FloatOps.maximumf (F := Ideal) (φ := .f32)) y (constant (F := Ideal) S_ .f32 0xFF800000#32)
    reducesTo_S16777216x2_S16777216_d1 hred h_S_ (ix1 n)).trans ?_
  refine (fold_max_two (Ideal.ofBits .f32 0xFF800000#32) (y ∘ hred.lift (ix1 n))).trans ?_
  have e0 := lift_cols hred n 0
  have e1 := lift_cols hred n 1
  show max (y (hred.lift (ix1 n) (0 : Fin 2))) (max (y (hred.lift (ix1 n) (1 : Fin 2))) _) = _
  rw [e0, e1]

/-- The sum from zero along the two columns, at row `n`. -/
theorem rowSum_apply (y : S16777216x2.Idx → EReal) (n : Fin 16777216) :
    (Host.reduceAdd (F := Ideal) y (constant S_ .f32 0x00000000#32) reducesTo_S16777216x2_S16777216_d1 h_S_ : S16777216.Idx → EReal) (ix1 n)
      = Ideal.ofBits .f32 0x00000000#32 + (y (ix2 n (0 : Fin 2)) + y (ix2 n (1 : Fin 2))) := by
  have hred : S16777216x2.Reduces [1] S16777216 := by decide
  simp only [Host.reduceAdd, Ideal.hostReduceAdd_def]
  rw [Ideal.hostReduceAdd_single reducesTo_S16777216x2_S16777216_d1 hred]
  refine congrArg (_ + ·) ?_
  have e0 := lift_cols hred n 0
  have e1 := lift_cols hred n 1
  have : ∑ k : Fin 2, y (hred.lift (ix1 n) k) = y (ix2 n (0 : Fin 2)) + y (ix2 n (1 : Fin 2)) := by
    rw [Fin.sum_univ_two, e0, e1]
  exact this

/-- The sum from zero over the whole array: over the rows, the two entries of the row. -/
theorem total_apply (y : S16777216x2.Idx → EReal) (j : S_.Idx) :
    (Host.reduceAdd (F := Ideal) y (constant S_ .f32 0x00000000#32) reducesTo_S16777216x2_S_d0_1 h_S_ : S_.Idx → EReal) j
      = Ideal.ofBits .f32 0x00000000#32 + ∑ n : Fin 16777216, (y (ix2 n (0 : Fin 2)) + y (ix2 n (1 : Fin 2))) := by
  simp only [Host.reduceAdd, Ideal.hostReduceAdd_def]
  rw [Ideal.hostReduceAdd_total reducesTo_S16777216x2_S_d0_1 (fun b => b.elim0), sum_idx2]
  exact congrArg (_ + ·) (Finset.sum_congr rfl fun n _ => Fin.sum_univ_two _)

/-! ## The stages -/

/-- The row maximum of row `n`. -/
theorem rowMaxes_apply (n : Fin 16777216) :
    rowMaxes (F := Ideal) x1 x2 (ix1 n) = rowMax (x1 (ix2 n (0 : Fin 1))) (x2 (ix2 n (0 : Fin 1))) := by
  unfold rowMaxes
  rw [maximumf_apply, rowFold_apply, joined_left, joined_right]
  rfl

/-- The shifted entry at (n, k). -/
theorem shifted_apply (n : Fin 16777216) (k : Fin 2) :
    shifted (F := Ideal) x1 x2 (ix2 n k)
      = joined (F := Ideal) x1 x2 (ix2 n k) - rowMax (x1 (ix2 n (0 : Fin 1))) (x2 (ix2 n (0 : Fin 1))) := by
  unfold shifted
  rw [subf_apply, spread_apply, column_apply, rowMaxes_apply]

/-- The logarithm of row `n`'s sum of exponentials. -/
theorem logSums_apply (n : Fin 16777216) :
    logSums (F := Ideal) x1 x2 (ix2 n (0 : Fin 1))
      = Ideal.log (Ideal.ofBits .f32 0x00000000#32
          + (Ideal.exp (x1 (ix2 n (0 : Fin 1)) - rowMax (x1 (ix2 n (0 : Fin 1))) (x2 (ix2 n (0 : Fin 1))))
            + Ideal.exp (x2 (ix2 n (0 : Fin 1)) - rowMax (x1 (ix2 n (0 : Fin 1))) (x2 (ix2 n (0 : Fin 1)))))) := by
  unfold logSums
  rw [log_apply, column_apply, rowSum_apply, exp_apply, exp_apply, shifted_apply, shifted_apply, joined_left, joined_right]

/-- The log-probability at (n, k) is that of entry `k` of row `n`. -/
theorem logProbs_apply (n : Fin 16777216) (k : Fin 2) :
    logProbs (F := Ideal) x1 x2 (ix2 n k)
      = logProb (x1 (ix2 n (0 : Fin 1))) (x2 (ix2 n (0 : Fin 1))) (joined (F := Ideal) x1 x2 (ix2 n k)) := by
  unfold logProbs
  rw [subf_apply, shifted_apply, spread_apply, logSums_apply]
  rfl

/-- The loss: minus the quotient by the count of zero plus, over the rows, the two log-probabilities of the row. -/
theorem loss_apply (j : S_.Idx) :
    loss (F := Ideal) x1 x2 j
      = -(Ideal.div (Ideal.ofBits .f32 0x00000000#32
          + ∑ n : Fin 16777216, (logProb (x1 (ix2 n (0 : Fin 1))) (x2 (ix2 n (0 : Fin 1))) (x1 (ix2 n (0 : Fin 1)))
              + logProb (x1 (ix2 n (0 : Fin 1))) (x2 (ix2 n (0 : Fin 1))) (x2 (ix2 n (0 : Fin 1)))))
          (Ideal.ofBits .f32 0x4C000000#32)) := by
  unfold loss
  rw [negf_apply', divf_apply', total_apply]
  refine congrArg (fun z => -(Ideal.div (Ideal.ofBits .f32 0x00000000#32 + z) (Ideal.ofBits .f32 0x4C000000#32))) ?_
  refine Finset.sum_congr rfl fun n _ => ?_
  rw [logProbs_apply, logProbs_apply, joined_left, joined_right]

end Cert.ReferenceIdeal.LossValue

end
-- ==== Proof.Bridge.lean ====
/-
  The two results are one number.

  Write `g n` for the row term of row `n` of the two score columns. The tiled program's two core totals add up
  to the sum of `g` over all `2^24` rows taken tile by tile, which is the plain sum (Spec: the order of
  summation). The one-pass program's total is, over the rows, the sum of the row's two log-probabilities, which
  for real scores is `g n` (Spec: one row) — here the finiteness of the inputs is used. Both programs then
  divide by the same count and negate.
-/
import proofs.«123829_j19825569038545_2_alg».proof.Proof.KernelValue
import proofs.«123829_j19825569038545_2_alg».proof.Proof.Blocks
import proofs.«123829_j19825569038545_2_alg».proof.Proof.RefValue
import proofs.«123829_j19825569038545_2_alg».proof.Proof.Spec

noncomputable section

open scoped BigOperators
open Idealize.ShloMosaic Idealize.ShloMosaic.TcCoe Idealize.SL.Sem Idealize.ShloMosaic.ValueIdx

namespace Cert.Bridge

open Cert.PairLoss

/-- The row term of row `n` of two score columns (zero past the last row). -/
def rowTerm (x1 x2 : (⟨2, ![16777216, 1]⟩ : Shape).Idx → EReal) (n : ℕ) : EReal :=
  if h : n < 16777216 then rowK (x1 (ix2 (⟨n, h⟩ : Fin 16777216) (0 : Fin 1))) (x2 (ix2 (⟨n, h⟩ : Fin 16777216) (0 : Fin 1))) else 0

section Tiled

open Cert.KernelIdeal Cert.KernelIdeal.Gen Cert.KernelIdeal.Accum Cert.KernelIdeal.Corners Cert.KernelIdeal.Result

variable (m : (ℓ : Loc nD τ sig) → Buf (Elt Ideal) ℓ)

/-- A grid step's column sum, over the rows of the score arguments. -/
theorem colSum_eq (c : Dev nD) (n : ℕ) (hn : n < 16) (l : Fin 128) :
    colSum m c n l = ∑ r ∈ Finset.range 8192,
      rowTerm (m ((c : Thread nD τ).loc main_arg1)) (m ((c : Thread nD τ).loc main_arg2)) ((n * 8192 + r) * 128 + l.val) := by
  have h : n < cfg0.N := by rw [show cfg0.N = 16 from N_0]; exact hn
  rw [Finset.sum_range fun r => rowTerm (m ((c : Thread nD τ).loc main_arg1)) (m ((c : Thread nD τ).loc main_arg2)) ((n * 8192 + r) * 128 + l.val)]
  unfold colSum
  rw [dif_pos h]
  refine Finset.sum_congr rfl fun r _ => ?_
  have hb : (n * 8192 + r.val) * 128 + l.val < 16777216 := by have := r.isLt; have := l.isLt; omega
  unfold rowTerm
  rw [dif_pos hb]
  exact congrArg₂ rowK (Blocks.syn_apply m c ⟨n, h⟩ r l ⟨_, hb⟩ rfl) (Blocks.ant_apply m c ⟨n, h⟩ r l ⟨_, hb⟩ rfl)

/-- A core's total, over the rows of the score arguments. -/
theorem coreTotal_eq (c : Dev nD) (b : ℕ) (hb : b < 2) :
    coreTotal m c b = ∑ l ∈ Finset.range 128, ∑ s ∈ Finset.range 8, ∑ r ∈ Finset.range 8192,
      rowTerm (m ((c : Thread nD τ).loc main_arg1)) (m ((c : Thread nD τ).loc main_arg2)) (((8 * b + s) * 8192 + r) * 128 + l) := by
  rw [Finset.sum_range fun l => ∑ s ∈ Finset.range 8, ∑ r ∈ Finset.range 8192,
      rowTerm (m ((c : Thread nD τ).loc main_arg1)) (m ((c : Thread nD τ).loc main_arg2)) (((8 * b + s) * 8192 + r) * 128 + l)]
  unfold coreTotal
  refine Finset.sum_congr rfl fun l _ => Finset.sum_congr rfl fun s hs => ?_
  have hs' : s < 8 := Finset.mem_range.mp hs
  exact colSum_eq m c (8 * b + s) (by omega) l

/-- The two cores' totals add up to the sum of the row terms over all rows. -/
theorem totals_eq (c : Dev nD) :
    coreTotal m c 0 + coreTotal m c 1
      = ∑ n ∈ Finset.range 16777216, rowTerm (m ((c : Thread nD τ).loc main_arg1)) (m ((c : Thread nD τ).loc main_arg2)) n := by
  rw [sum_rows_tiled, Finset.sum_range_succ, Finset.sum_range_one, coreTotal_eq m c 0 (by decide), coreTotal_eq m c 1 (by decide)]

end Tiled

/-- For real scores, the one-pass total over the rows is the sum of the row terms. -/
theorem onepass_total (x1 x2 : (⟨2, ![16777216, 1]⟩ : Shape).Idx → EReal)
    (h1 : ∀ i, x1 i ≠ ⊤ ∧ x1 i ≠ ⊥) (h2 : ∀ i, x2 i ≠ ⊤ ∧ x2 i ≠ ⊥) :
    ∑ n : Fin 16777216, (logProb (x1 (ix2 n (0 : Fin 1))) (x2 (ix2 n (0 : Fin 1))) (x1 (ix2 n (0 : Fin 1)))
        + logProb (x1 (ix2 n (0 : Fin 1))) (x2 (ix2 n (0 : Fin 1))) (x2 (ix2 n (0 : Fin 1))))
      = ∑ n ∈ Finset.range 16777216, rowTerm x1 x2 n := by
  rw [Finset.sum_range fun n => rowTerm x1 x2 n]
  refine Finset.sum_congr rfl fun n _ => ?_
  obtain ⟨s, hs⟩ : ∃ s : ℝ, x1 (ix2 n (0 : Fin 1)) = (s : EReal) := ⟨_, (EReal.coe_toReal (h1 _).1 (h1 _).2).symm⟩
  obtain ⟨a, ha⟩ : ∃ a : ℝ, x2 (ix2 n (0 : Fin 1)) = (a : EReal) := ⟨_, (EReal.coe_toReal (h2 _).1 (h2 _).2).symm⟩
  unfold rowTerm
  rw [dif_pos n.isLt, hs, ha]
  exact logProb_add s a

/-- The tiled program's result is the one-pass program's loss of the same two score columns, when these hold real numbers. -/
theorem result_eq (m : (ℓ : Loc Cert.KernelIdeal.nD Cert.KernelIdeal.τ Cert.KernelIdeal.sig) → Buf (Elt Ideal) ℓ)
    (c : Dev Cert.KernelIdeal.nD) (x1 x2 : (⟨2, ![16777216, 1]⟩ : Shape).Idx → EReal)
    (e1 : m ((c : Thread Cert.KernelIdeal.nD Cert.KernelIdeal.τ).loc Cert.KernelIdeal.main_arg1) = x1)
    (e2 : m ((c : Thread Cert.KernelIdeal.nD Cert.KernelIdeal.τ).loc Cert.KernelIdeal.main_arg2) = x2)
    (h1 : ∀ i, x1 i ≠ ⊤ ∧ x1 i ≠ ⊥) (h2 : ∀ i, x2 i ≠ ⊤ ∧ x2 i ≠ ⊥) :
    (Cert.KernelIdeal.Result.result m c : (⟨0, ![]⟩ : Shape).Idx → EReal)
      = Cert.ReferenceIdeal.HostRun.loss (F := Ideal) x1 x2 := by
  funext j
  rw [Cert.ReferenceIdeal.LossValue.loss_apply, onepass_total _ _ h1 h2, Ideal.ofBits_zero_f32, zero_add]
  unfold Cert.KernelIdeal.Result.result
  rw [totals_eq, e1, e2]

end Cert.Bridge

end
-- ==== Proof.lean ====
/-
  A pairwise log-softmax loss, computed two ways, is one number.

  Each of `2^24` rows holds two scores `s` and `a`; the loss is minus the mean of the `2 · 2^24` log-probabilities
  `log (e^x / (e^s + e^a))`, `x` ranging over `s` and `a`.

  The one-pass program joins the two score columns, subtracts each row's maximum `M`, and forms the
  log-probabilities `(x - M) - log (0 + (e^(s - M) + e^(a - M)))`; it sums them all, divides by `2^25` and negates.

  The tiled program views each column as 131072 rows of 128 lanes and visits sixteen tiles of 8192 rows, eight
  per core. Per entry it forms `(s + a) - 2 · (M + log (e^(s - M) + e^(a - M)))`, the sum of the row's two
  log-probabilities; it adds each tile's column sums into a lane accumulator that is zeroed at a core's first
  tile, and after a core's last tile writes the accumulator's total over the lanes to the corner of the core's
  block of the result array. The two corners are then added, divided by `2^25` and negated.

  For real scores `2 · (M + L) = 2M + 2L`, so a row's term is the sum of its two log-probabilities (Spec); the
  precondition says the scores are real (Finite). Sums of extended reals may be taken in any order, so the
  two cores' totals add up to the sum over all rows (Spec, Accum, Corners, Blocks, Bridge). Both programs end
  with the same division and negation, which are never opened.

  The three frames: the tiled program's two are its generated frame runs; the one-pass program's is its run
  (RefRun) with the result dropped. The idealization rewrote nothing, so it preserves the program trivially.
-/
import proofs.«123829_j19825569038545_2_alg».proof.Defs
import proofs.«123829_j19825569038545_2_alg».proof.Proof.Gen.Kernel
import proofs.«123829_j19825569038545_2_alg».proof.Proof.Gen.Kernel.Frame
import proofs.«123829_j19825569038545_2_alg».proof.Proof.Gen.KernelIdeal
import proofs.«123829_j19825569038545_2_alg».proof.Proof.Gen.KernelIdeal.Frame
import proofs.«123829_j19825569038545_2_alg».proof.Proof.Gen.ReferenceIdeal
import proofs.«123829_j19825569038545_2_alg».proof.Proof.Gen.Pre_finite_inputs
import proofs.«123829_j19825569038545_2_alg».proof.Proof.RefRun
import proofs.«123829_j19825569038545_2_alg».proof.Proof.KernelValue
import proofs.«123829_j19825569038545_2_alg».proof.Proof.Finite
import proofs.«123829_j19825569038545_2_alg».proof.Proof.Bridge
import Idealize.ShloMosaic.Adequacy
import Idealize.ShloMosaic.Init

noncomputable section

namespace Cert.Proof

open Idealize.ShloMosaic Idealize.SL.Sem

theorem frame_tiled_words : Cert.frame_Kernel := fun m ρ _ => Cert.Kernel.Gen.frame m ρ

theorem frame_tiled : Cert.frame_KernelIdeal := fun m ρ _ => Cert.KernelIdeal.Gen.frame m ρ

theorem frame_onepass : Cert.frame_ReferenceIdeal := fun m ρ _ =>
  (θ_run Cert.ReferenceIdeal.defs _ _).mono (fun _ h c => (h c).2) (Cert.ReferenceIdeal.HostRun.run (F := Ideal) m ρ)

theorem preserves : Cert.preserves_Kernel_KernelIdeal := trivial

/-- Over the extended reals, from memories that agree on the arguments, both programs end at the tiled program's
    result: the tiled one by its run, the one-pass one because its loss of real scores is that number. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.HostRun.run (F := Ideal) m' ρ')
  obtain ⟨hf1, hf2⟩ := Cert.FiniteInputs.scores_finite _ _ _ (hpre c)
  rw [(hagree c).2.1, (hagree c).2.2]
  exact (Cert.Bridge.result_eq m c _ _ rfl rfl hf1 hf2).symm

theorem claim : Cert.Claim :=
  ⟨Cert.Kernel.Gen.facts, Cert.KernelIdeal.Gen.facts, Cert.ReferenceIdeal.Gen.facts, Cert.Pre_finite_inputs.Gen.facts,
    frame_tiled_words, frame_tiled, frame_onepass, preserves, algebraic⟩

end Cert.Proof

end
